-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 124
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S850000x1, .f32⟩
  | .hbm, ⟨51, _⟩ => ⟨S50000x128, .bf16⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .bf16⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .bf16⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .bf16⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .bf16⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x128, .bf16⟩
  | .hbm, ⟨97, _⟩ => ⟨S850000x128, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S1x128, .f32⟩
  | .hbm, ⟨105, _⟩ => ⟨S50000x128, .bf16⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .bf16⟩
  | .hbm, ⟨115, _⟩ => ⟨S850000x128, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .bf16 = 32 ∨ (Rect.block (s := S50000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x128, .f32⟩
  | 106 => ⟨S850000x1, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call4_cst : Ref sig .tc := ⟨.hbm, 139, rfl⟩
abbrev main_call4_v0 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel program's run, with its result array named: every weakly fair execution of the program ends, nothing
  faulting, with the result buffer holding what the last of the five launches leaves in its output array (the contents at the
  last segment boundary of the fold through the program's host stretches and launches) and every argument array as launched.
  The run is the several-launch theorem applied to the program's segments; the final thread state holds every unscoped buffer at
  the last boundary's contents, and the result buffer is one of them.
-/
import proofs.«129577_j75866302317043_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Named

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Layer.lean ====
/-
  The two whole-array functions a graph-convolution layer is made of, on the extended reals, over 50000 nodes of 128 features:
  * `dense x w`: every node's feature row times a 128 × 128 weight matrix, entry (r, c) = Σ_k x(r,k) · w(k,c);
  * `biasClamp a b`: a bias row added to every node's row, every entry then clamped below at zero.
-/
import Idealize.ShloMosaic.PureOps.Ideal.Laws
import Idealize.ShloMosaic.Lib.ValueIdx

noncomputable section

open scoped BigOperators

namespace Cert.Gcn

open Idealize.ShloMosaic Idealize.ShloMosaic.ValueIdx

/-- The zero both programs clamp at, as the f32 word they write. -/
abbrev zeroWord : EReal := Ideal.ofBits .f32 0x00000000#32

/-- Node features times a weight matrix. -/
def dense (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (i 0) k) * w (ix2 k (i 1))

/-- A bias row added to every node's row, clamped below at zero. -/
def biasClamp (a : (⟨2, ![50000, 128]⟩ : Shape).Idx → EReal) (b : (⟨2, ![1, 128]⟩ : Shape).Idx → EReal) :
    (⟨2, ![50000, 128]⟩ : Shape).Idx → EReal :=
  fun i => max (a i + b (ix2 (0 : Fin 1) (i 1))) zeroWord

end Cert.Gcn

end
-- ==== Proof.Tiles.lean ====
/-
  What each kernel body stores, read at one entry (p, q) of its 5000 × 128 output tile, on the extended reals
  (a change of float format is the identity there, and a product into the zero accumulator is the plain sum):
  * the first body: the row p of the node tile times the column q of the weight matrix, Σ_k x(p,k) · w(k,q);
  * the middle bodies: the same product, of the tile after the bias row is added and every entry clamped below at zero;
  * the last body: the tile plus the bias row, clamped below at zero.
-/
import proofs.«129577_j75866302317043_2_alg».proof.Proof.Gen.KernelIdeal.Skeleton
import proofs.«129577_j75866302317043_2_alg».proof.Proof.LibPlainDot
import proofs.«129577_j75866302317043_2_alg».proof.Proof.Layer
import Idealize.ShloMosaic.Lib.Pipeline.Value
import Idealize.ShloMosaic.Lib.ValueLayout

noncomputable section

open scoped BigOperators

namespace Cert.KernelIdeal.Tiles

open Idealize.ShloMosaic Idealize.ShloMosaic.ValueIdx Cert.KernelIdeal Cert.KernelIdeal.Gen Cert.Gcn

/-- A tile with the bias row added to every row and every entry clamped below at zero, at (p, k). -/
theorem clamp_entry (v0 : FVec Ideal S5000x128 .f32) (v2 : FVec Ideal S1x128 .f32) (p : Fin 5000) (k : Fin 128) :
    maximumf (addf (shapeCast S5000x128 v0 shapeCasts_S5000x128_S5000x128)
        (broadcastTo S5000x128 (shapeCast S1x128 v2 shapeCasts_S1x128_S1x128) broadcasts_S1x128_S5000x128))
      (broadcast S5000x128 (Scalar.ofBits (F := Ideal) .f32 0x00000000#32)) (ix2 p k)
      = max (v0 (ix2 p k) + v2 (ix2 (0 : Fin 1) k)) zeroWord := by
  rw [maximumf_apply, addf_apply, shapeCast_self, shapeCast_self, broadcastTo_1b_ab_apply]
  rfl

/-- The first body's tile at (p, q). -/
theorem matmul_tile (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  exact PlainDot.matmul_zero_apply (M := 5000) (K := 128) (N := 128) none
    (truncf .bf16 x0 bitsLt_bf16_f32) (truncf .bf16 x1 bitsLt_bf16_f32) p q

/-- The last body's tile at (p, q). -/
theorem clamp_tile (v0 : FVec Ideal S5000x128 .f32) (v2 : FVec Ideal S1x128 .f32) (p : Fin 5000) (q : Fin 128) :
    k4_pay1 (F := Ideal) v0 v2 (ix2 p q) = max (v0 (ix2 p q) + v2 (ix2 (0 : Fin 1) q)) zeroWord := by
  unfold k4_pay1
  exact clamp_entry v0 v2 p q

/-- A middle body's tile at (p, q): the product of the clamped tile with the weights. -/
theorem clamp_matmul_entry (v0 : FVec Ideal S5000x128 .f32) (v2 : FVec Ideal S1x128 .f32) (v9 : FVec Ideal S128x128 .f32)
    (p : Fin 5000) (q : Fin 128) :
    (truncf .bf16 (matmul dot_S5000x128_S128x128_S5000x128_1_0_0_1_n_n none
      (truncf .bf16 (maximumf (addf (shapeCast S5000x128 v0 shapeCasts_S5000x128_S5000x128)
        (broadcastTo S5000x128 (shapeCast S1x128 v2 shapeCasts_S1x128_S1x128) broadcasts_S1x128_S5000x128))
        (broadcast S5000x128 (Scalar.ofBits (F := Ideal) .f32 0x00000000#32))) bitsLt_bf16_f32)
      (truncf .bf16 v9 bitsLt_bf16_f32) (constant S5000x128 .f32 0x00000000#32)) bitsLt_bf16_f32 : FVec Ideal S5000x128 .bf16) (ix2 p q)
      = ∑ k : Fin 128, max (v0 (ix2 p k) + v2 (ix2 (0 : Fin 1) k)) zeroWord * v9 (ix2 k q) := by
  refine (PlainDot.matmul_zero_apply (M := 5000) (K := 128) (N := 128) none _ (truncf .bf16 v9 bitsLt_bf16_f32) p q).trans ?_
  refine Finset.sum_congr rfl fun k _ => ?_
  exact congrArg (· * v9 (ix2 k q)) (clamp_entry v0 v2 p k)

theorem clamp_matmul_tile1 (v0 : FVec Ideal S5000x128 .f32) (v2 : FVec Ideal S1x128 .f32) (v9 : FVec Ideal S128x128 .f32)
    (p : Fin 5000) (q : Fin 128) :
    k1_pay1 (F := Ideal) v0 v2 v9 (ix2 p q) = ∑ k : Fin 128, max (v0 (ix2 p k) + v2 (ix2 (0 : Fin 1) k)) zeroWord * v9 (ix2 k q) := by
  unfold k1_pay1
  exact clamp_matmul_entry v0 v2 v9 p q

theorem clamp_matmul_tile2 (v0 : FVec Ideal S5000x128 .f32) (v2 : FVec Ideal S1x128 .f32) (v9 : FVec Ideal S128x128 .f32)
    (p : Fin 5000) (q : Fin 128) :
    k2_pay1 (F := Ideal) v0 v2 v9 (ix2 p q) = ∑ k : Fin 128, max (v0 (ix2 p k) + v2 (ix2 (0 : Fin 1) k)) zeroWord * v9 (ix2 k q) := by
  unfold k2_pay1
  exact clamp_matmul_entry v0 v2 v9 p q

theorem clamp_matmul_tile3 (v0 : FVec Ideal S5000x128 .f32) (v2 : FVec Ideal S1x128 .f32) (v9 : FVec Ideal S128x128 .f32)
    (p : Fin 5000) (q : Fin 128) :
    k3_pay1 (F := Ideal) v0 v2 v9 (ix2 p q) = ∑ k : Fin 128, max (v0 (ix2 p k) + v2 (ix2 (0 : Fin 1) k)) zeroWord * v9 (ix2 k q) := by
  unfold k3_pay1
  exact clamp_matmul_entry v0 v2 v9 p q

end Cert.KernelIdeal.Tiles

end
-- ==== Proof.Region0.lean ====
/-
  The first kernel launch (ten grid points, each a tile of 5000 nodes): after it, its output array holds the node features
  times the weight matrix, whatever the buffers held when the launch was entered. Point t reads rows 5000·t … 5000·t + 4999 of
  the features and the whole weight matrix, and writes back the same rows of the product; the ten tiles cover all 50000 rows.
-/
import proofs.«129577_j75866302317043_2_alg».proof.Proof.Gen.KernelIdeal.Frame
import proofs.«129577_j75866302317043_2_alg».proof.Proof.Tiles
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the feature window and the output window are at tile t, the weight window at the origin. -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product. -/
theorem flushed0 (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := tileIndex0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = dense (V c main_arg0) (V c main_arg2) (((cfg0.win 2).blk t).view.emb (ix2 p q))
  refine (Tiles.matmul_tile (iblk0 V c 0 t) (iblk0 V c 1 t) p q).trans ?_
  unfold dense
  refine Finset.sum_congr rfl fun k _ => ?_
  have ha : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hb : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have hx : iblk0 V c 0 t (ix2 p k) = V c main_arg0 (ix2 ((((cfg0.win 2).blk t).view.emb (ix2 p q)) 0) k) :=
    congrArg (V c main_arg0) ha
  have hy : iblk0 V c 1 t (ix2 k q) = V c main_arg2 (ix2 k ((((cfg0.win 2).blk t).view.emb (ix2 p q)) 1)) :=
    congrArg (V c main_arg2) hb
  rw [hx, hy]

/-- An index of the array is in point t's tile iff each coordinate is in the tile's range on its axis. -/
theorem memTile0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row is in some point's tile: row r in tile r / 5000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < grid0.N := by omega
  obtain ⟨e0, e1, e2, e3, e4, e5⟩ := tileIndex0 ⟨(i 0).val / 5000, ht⟩
  refine ⟨⟨(i 0).val / 5000, ht⟩, flush0_2 _, ?_⟩
  rw [memTile0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the launch is the product. -/
theorem final0 (c : Dev nD) : (dat0 V c).arrAt 2 cfg0.N = dense (V c main_arg0) (V c main_arg2) :=
  (dat0 V c).arrAt_eq_of_cover 2 _ (fun t _ => flushed0 V c t) (covered0)

end Cert.KernelIdeal.Regions

end
-- ==== Proof.Region1.lean ====
/-
  Kernel launch 1 of five (ten grid points, each a tile of 5000 nodes): after it, its output array holds the aggregated features with
  the bias row added and clamped below at zero, times the weight matrix — whatever the buffers held when the launch was entered.
  Point t reads rows 5000·t … 5000·t + 4999 of the aggregate, the one bias row and the whole weight matrix, and writes back the same
  rows of the result; the ten tiles cover all 50000 rows.
-/
import proofs.«129577_j75866302317043_2_alg».proof.Proof.Gen.KernelIdeal.Frame
import proofs.«129577_j75866302317043_2_alg».proof.Proof.Tiles
import proofs.«129577_j75866302317043_2_alg».proof.Proof.Region0
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The index maps over the grid: the aggregate's window and the output window are at tile t, the bias row and the weights at the origin. -/
theorem tileIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1600000 in
/-- What point t writes back is tile t of the layer's dense step applied to the clamped aggregate. -/
theorem flushed1 (c : Dev nD) (t : Fin cfg1.N) :
    (dat1 V c).flushed 3 t = ((cfg1.win 3).blk t).view.read (Elt Ideal)
      (dense (biasClamp (V c main_v44) (V c main_v45)) (V c main_arg4)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets,
    View.ld_unit_zero (S := S128x128) zeroOffsets]
  obtain ⟨e0, e1, e2, e3, e4, e5, e6, e7⟩ := tileIndex1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = dense (biasClamp (V c main_v44) (V c main_v45)) (V c main_arg4) (((cfg1.win 3).blk t).view.emb (ix2 p q))
  refine (Tiles.clamp_matmul_tile1 (iblk1 V c 0 t) (iblk1 V c 1 t) (iblk1 V c 2 t) p q).trans ?_
  unfold dense biasClamp
  refine Finset.sum_congr rfl fun k _ => ?_
  have ha : ((cfg1.win 0).blk t).view.emb (ix2 p k) = ix2 ((((cfg1.win 3).blk t).view.emb (ix2 p q)) 0) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hc : ((cfg1.win 2).blk t).view.emb (ix2 k q) = ix2 k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega
  have hx : iblk1 V c 0 t (ix2 p k) = V c main_v44 (ix2 ((((cfg1.win 3).blk t).view.emb (ix2 p q)) 0) k) :=
    congrArg (V c main_v44) ha
  have hy : iblk1 V c 1 t (ix2 (0 : Fin 1) k) = V c main_v45 (ix2 (0 : Fin 1) k) :=
    congrArg (V c main_v45) hb
  have hw : iblk1 V c 2 t (ix2 k q) = V c main_arg4 (ix2 k ((((cfg1.win 3).blk t).view.emb (ix2 p q)) 1)) :=
    congrArg (V c main_arg4) hc
  rw [hx, hy, hw]

/-- An index of the array is in point t's tile iff each coordinate is in the tile's range on its axis. -/
theorem memTile1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- Every row is in some point's tile: row r in tile r / 5000. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < grid1.N := by omega
  obtain ⟨e0, e1, e2, e3, e4, e5, e6, e7⟩ := tileIndex1 ⟨(i 0).val / 5000, ht⟩
  refine ⟨⟨(i 0).val / 5000, ht⟩, flush1_3 _, ?_⟩
  rw [memTile1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- The output array after the launch. -/
theorem final1 (c : Dev nD) :
    (dat1 V c).arrAt 3 cfg1.N = dense (biasClamp (V c main_v44) (V c main_v45)) (V c main_arg4) :=
  (dat1 V c).arrAt_eq_of_cover 3 _ (fun t _ => flushed1 V c t) (covered1)

end Cert.KernelIdeal.Regions

end
-- ==== Proof.Region2.lean ====
/-
  Kernel launch 2 of five (ten grid points, each a tile of 5000 nodes): after it, its output array holds the aggregated features with
  the bias row added and clamped below at zero, times the weight matrix — whatever the buffers held when the launch was entered.
  Point t reads rows 5000·t … 5000·t + 4999 of the aggregate, the one bias row and the whole weight matrix, and writes back the same
  rows of the result; the ten tiles cover all 50000 rows.
-/
import proofs.«129577_j75866302317043_2_alg».proof.Proof.Gen.KernelIdeal.Frame
import proofs.«129577_j75866302317043_2_alg».proof.Proof.Tiles
import proofs.«129577_j75866302317043_2_alg».proof.Proof.Region0
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The index maps over the grid: the aggregate's window and the output window are at tile t, the bias row and the weights at the origin. -/
theorem tileIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1600000 in
/-- What point t writes back is tile t of the layer's dense step applied to the clamped aggregate. -/
theorem flushed2 (c : Dev nD) (t : Fin cfg2.N) :
    (dat2 V c).flushed 3 t = ((cfg2.win 3).blk t).view.read (Elt Ideal)
      (dense (biasClamp (V c main_v59) (V c main_v60)) (V c main_arg6)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S1x128) zeroOffsets,
    View.ld_unit_zero (S := S128x128) zeroOffsets]
  obtain ⟨e0, e1, e2, e3, e4, e5, e6, e7⟩ := tileIndex2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = dense (biasClamp (V c main_v59) (V c main_v60)) (V c main_arg6) (((cfg2.win 3).blk t).view.emb (ix2 p q))
  refine (Tiles.clamp_matmul_tile2 (iblk2 V c 0 t) (iblk2 V c 1 t) (iblk2 V c 2 t) p q).trans ?_
  unfold dense biasClamp
  refine Finset.sum_congr rfl fun k _ => ?_
  have ha : ((cfg2.win 0).blk t).view.emb (ix2 p k) = ix2 ((((cfg2.win 3).blk t).view.emb (ix2 p q)) 0) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hc : ((cfg2.win 2).blk t).view.emb (ix2 k q) = ix2 k ((((cfg2.win 3).blk t).view.emb (ix2 p q)) 1) := by
    funext a; apply Fin.ext
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega
  have hx : iblk2 V c 0 t (ix2 p k) = V c main_v59 (ix2 ((((cfg2.win 3).blk t).view.emb (ix2 p q)) 0) k) :=
    congrArg (V c main_v59) ha
  have hy : iblk2 V c 1 t (ix2 (0 : Fin 1) k) = V c main_v60 (ix2 (0 : Fin 1) k) :=
    congrArg (V c main_v60) hb
  have hw : iblk2 V c 2 t (ix2 k q) = V c main_arg6 (ix2 k ((((cfg2.win 3).blk t).view.emb (ix2 p q)) 1)) :=
    congrArg (V c main_arg6) hc
  rw [hx, hy, hw]

/-- An index of the array is in point t's tile iff each coordinate is in the tile's range on its axis. -/
theorem memTile2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v61).slice (win2_3.rect t)).set ↔ _
  rw [View.set_slice_whole, Rect.mem_set_unit]
  exact Iff.rfl

/-- Every row is in some point's tile: row r in tile r / 5000. -/
theorem covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < grid2.N := by omega
  obtain ⟨e0, e1, e2, e3, e4, e5, e6, e7⟩ := tileIndex2 ⟨(i 0).val / 5000, ht⟩
  refine ⟨⟨(i 0).val / 5000, ht⟩, flush2_3 _, ?_⟩
  rw [memTile2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e7]; omega

/-- The output array after the launch. -/
theorem final2 (c : Dev nD) :
    (dat2 V c).arrAt 3 cfg2.N = dense (biasClamp (V c main_v59) (V c main_v60)) (V c main_arg6) :=
  (dat2 V c).arrAt_eq_of_cover 3 _ (fun t _ => flushed2 V c t) (covered2)

end Cert.KernelIdeal.Regions

end
-- ==== Proof.Region3.lean ====
/-
  Kernel launch 3 of five (ten grid points, each a tile of 5000 nodes): after it, its output array holds the aggregated features with
  the bias row added and clamped below at zero, times the weight matrix — whatever the buffers held when the launch was entered.
  Point t reads rows 5000·t … 5000·t + 4999 of the aggregate, the one bias row and the whole weight matrix, and writes back the same
  rows of the result; the ten tiles cover all 50000 rows.
-/
import proofs.«129577_j75866302317043_2_alg».proof.Proof.Gen.KernelIdeal.Frame
import proofs.«129577_j75866302317043_2_alg».proof.Proof.Tiles
import proofs.«129577_j75866302317043_2_alg».proof.Proof.Region0
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The index maps over the grid: the aggregate's window and the output window are at tile t, the bias row and the weights at the origin. -/
theorem tileIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1600000 in
/-- What point t writes back is tile t of the layer's dense step applied to the clamped aggregate. -/
theorem flushed3 (c : Dev nD) (t : Fin cfg3.N) :
    (dat3 V c).flushed 3 t = ((cfg3.win 3).blk t).view.read (Elt Ideal)
      (dense (biasClamp (V c main_v74) (V c main_v75)) (V c main_arg8)) := by
  show (cfg3.win 3).cut (grid3.coords t) ((dat3 V c).after 3 t) = _
  rw [after3_3]
  unfold out3_3
  rw [View.canon_unit_zero zeroOffsets]
  simp only [View.ld_unit_zero (S := S5000x128) zeroOffsets, View.ld_unit_zero (S := S1x128) zeroOffsets,
    View.ld_unit_zero (S := S128x128) zeroOffsets]
  obtain ⟨e0, e1, e2, e3, e4, e5, e6, e7⟩ := tileIndex3 t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (ix2 p q)
    = dense (biasClamp (V c main_v74) (V c main_v75)) (V c main_arg8) (((cfg3.win 3).blk t).view.emb (ix2 p q))
  refine (Tiles.clamp_matmul_tile3 (iblk3 V c 0 t) (iblk3 V c 1 t) (iblk3 V c 2 t) p q).trans ?_
  unfold dense biasClamp
  refine Finset.sum_congr rfl fun k _ => ?_
  have ha : ((cfg3.win 0).blk t).view.emb (ix2 p k) = ix2 ((((cfg3.win 3).blk t).view.emb (ix2 p q)) 0) k := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * k.val = k.val; omega
  have hb : ((cfg3.win 1).blk t).view.emb (ix2 (0 : Fin 1) k) = ix2 (0 : Fin 1) k := by
    funext a; apply Fin.ext
    match a with
    | ⟨0, _⟩ => show win3_1.index t (0 : Fin 2) * 1 + 1 * 0 = 0; omega
    | ⟨1, _⟩ => show win3_1.index t (1 : Fin 2) * 128 + 1 * k.val = k.val; omega
  have hc : ((cfg3.win 2).blk t).view.emb (ix2 k q) = ix2 k ((((cfg3.win 3).blk t).view.emb (ix2 p q)) 1) := by
    funext a; apply Fin.ext
    match a with
    | ⟨0, _⟩ => show win3_2.index t (0 : Fin 2) * 128 + 1 * k.val = k.val; omega
    | ⟨1, _⟩ => show win3_2.index t (1 : Fin 2) * 128 + 1 * q.val = win3_3.index t (1 : Fin 2) * 128 + 1 * q.val; omega
  have hx : iblk3 V c 0 t (ix2 p k) = V c main_v74 (ix2 ((((cfg3.win 3).blk t).view.emb (ix2 p q)) 0) k) :=
    congrArg (V c main_v74) ha
  have hy : iblk3 V c 1 t (ix2 (0 : Fin 1) k) = V c main_v75 (ix2 (0 : Fin 1) k) :=
    congrArg (V c main_v75) hb
  have hw : iblk3 V c 2 t (ix2 k q) = V c main_arg8 (ix2 k ((((cfg3.win 3).blk t).view.emb (ix2 p q)) 1)) :=
    congrArg (V c main_arg8) hc
  rw [hx, hy, hw]

/-- An index of the array is in point t's tile iff each coordinate is in the tile's range on its axis. -/
theorem memTile3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v76).slice (win3_3.rect t)).set ↔ _
  rw [View.set_slice_whole, Rect.mem_set_unit]
  exact Iff.rfl

/-- Every row is in some point's tile: row r in tile r / 5000. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  have ht : (i 0).val / 5000 < grid3.N := by omega
  obtain ⟨e0, e1, e2, e3, e4, e5, e6, e7⟩ := tileIndex3 ⟨(i 0).val / 5000, ht⟩
  refine ⟨⟨(i 0).val / 5000, ht⟩, flush3_3 _, ?_⟩
  rw [memTile3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e7]; omega

/-- The output array after the launch. -/
theorem final3 (c : Dev nD) :
    (dat3 V c).arrAt 3 cfg3.N = dense (biasClamp (V c main_v74) (V c main_v75)) (V c main_arg8) :=
  (dat3 V c).arrAt_eq_of_cover 3 _ (fun t _ => flushed3 V c t) (covered3)

end Cert.KernelIdeal.Regions

end
-- ==== Proof.Region4.lean ====
/-
  The last kernel launch (ten grid points, each a tile of 5000 nodes): after it, its output array — the program's result — holds the
  aggregated features with the bias row added and clamped below at zero, whatever the buffers held when the launch was entered.
  Point t reads rows 5000·t … 5000·t + 4999 of the aggregate and the one bias row, and writes back the same rows; the ten tiles
  cover all 50000 rows.
-/
import proofs.«129577_j75866302317043_2_alg».proof.Proof.Gen.KernelIdeal.Frame
import proofs.«129577_j75866302317043_2_alg».proof.Proof.Tiles
import proofs.«129577_j75866302317043_2_alg».proof.Proof.Region0
import Idealize.ShloMosaic.Lib.Pipeline.Value

set_option maxRecDepth 16384

noncomputable section

open scoped BigOperators

namespace Cert.KernelIdeal.Regions

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The index maps over the grid: the aggregate's window and the output window are at tile t, the bias row at the origin. -/
theorem tileIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is tile t of the clamped aggregate. -/
theorem flushed4 (c : Dev nD) (t : Fin cfg4.N) :
    (dat4 V c).flushed 2 t = ((cfg4.win 2).blk t).view.read (Elt Ideal) (biasClamp (V c main_v89) (V c main_v90)) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S1x128) zeroOffsets]
  obtain ⟨e0, e1, e2, e3, e4, e5⟩ := tileIndex4 t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q)
    = biasClamp (V c main_v89) (V c main_v90) (((cfg4.win 2).blk t).view.emb (ix2 p q))
  refine (Tiles.clamp_tile (iblk4 V c 0 t) (iblk4 V c 1 t) p q).trans ?_
  unfold biasClamp
  have ha : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have hb : ((cfg4.win 1).blk t).view.emb (ix2 (0 : Fin 1) q) = ix2 (0 : Fin 1) ((((cfg4.win 2).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  have hx : iblk4 V c 0 t (ix2 p q) = V c main_v89 (((cfg4.win 2).blk t).view.emb (ix2 p q)) :=
    congrArg (V c main_v89) ha
  have hy : iblk4 V c 1 t (ix2 (0 : Fin 1) q) = V c main_v90 (ix2 (0 : Fin 1) ((((cfg4.win 2).blk t).view.emb (ix2 p q)) 1)) :=
    congrArg (V c main_v90) hb
  rw [hx, hy]

/-- An index of the array is in point t's tile iff each coordinate is in the tile's range on its axis. -/
theorem memTile4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v91).slice (win4_2.rect t)).set ↔ _
  rw [View.set_slice_whole, Rect.mem_set_unit]
  exact Iff.rfl

/-- Every row is in some point's tile: row r in tile r / 5000. -/
theorem covered4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  have ht : (i 0).val / 5000 < grid4.N := by omega
  obtain ⟨e0, e1, e2, e3, e4, e5⟩ := tileIndex4 ⟨(i 0).val / 5000, ht⟩
  refine ⟨⟨(i 0).val / 5000, ht⟩, flush4_2 _, ?_⟩
  rw [memTile4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- The result array after the launch. -/
theorem final4 (c : Dev nD) : (dat4 V c).arrAt 2 cfg4.N = biasClamp (V c main_v89) (V c main_v90) :=
  (dat4 V c).arrAt_eq_of_cover 2 _ (fun t _ => flushed4 V c t) (covered4)

end Cert.KernelIdeal.Regions

end
-- ==== Proof.HostChain.lean ====
/-
  The host computation both programs share, named once and never opened again: the edge list with one self loop per node
  appended (sources, targets), negative indices wrapped by the node count, the in-degree of every node and its inverse square
  root (zero where the degree is not positive), the per-edge normalisation (the product of the two endpoints' values), and one
  round of message passing: gather every edge's source row, scale it by the edge's normalisation, and add it into the edge's
  target row, from the zero array. The bias row is the bias vector read as a 1 × 128 array.
-/
import proofs.«129577_j75866302317043_2_alg».proof.Proof.Gen.KernelIdeal
import Idealize.ShloMosaic.PureOps.Ideal

noncomputable section

namespace Cert.KernelIdeal.Chain

open Idealize.ShloMosaic Cert.KernelIdeal Cert.KernelIdeal.Facts₀

variable {F : FTy → Type} [FloatOps F]

/-- The source node of every edge: the given edges, then one self loop per node. -/
def sources (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The target node of every edge: the given edges, then one self loop per node. -/
def targets (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A list of node indices as a column, a negative index first moved up by the node count. -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Every node's in-degree, self loop included: ones added into the targets. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- Where the degree is positive. -/
def degreePositive (d : (⟨S850000, .i32⟩ : BufTy).Contents (Elt F)) : (⟨S50000, .i1⟩ : BufTy).Contents (Elt F) :=
  cmpf (F := F) .ogt (degree d) (broadcastInDim S50000 ![] bcast_S_S50000 (constant S_ .f32 0x00000000#32))

/-- A per-node value where the mask holds, the scalar `z` elsewhere. -/
def maskedOr (pos : (⟨S50000, .i1⟩ : BufTy).Contents (Elt F)) (v : (⟨S50000, .f32⟩ : BufTy).Contents (Elt F))
    (z : (⟨S_, .f32⟩ : BufTy).Contents (Elt F)) : (⟨S50000, .f32⟩ : BufTy).Contents (Elt F) :=
  select pos v (broadcastInDim S50000 ![] bcast_S_S50000 (id z))

/-- The inverse square root of the degree where it is positive, zero elsewhere. -/
def invSqrtDegree (d : (⟨S850000, .i32⟩ : BufTy).Contents (Elt F)) : (⟨S50000, .f32⟩ : BufTy).Contents (Elt F) :=
  maskedOr (degreePositive d) (Host.rsqrt (degree d)) (constant S_ .f32 0x00000000#32)

/-- A per-node value `g` turned into a per-edge column: the product of `g` at the edge's two endpoints. -/
def edgeProductCol (g : (⟨S50000, .f32⟩ : BufTy).Contents (Elt F)) (s d : (⟨S850000, .i32⟩ : BufTy).Contents (Elt F)) :
    (⟨S850000x1, .f32⟩ : BufTy).Contents (Elt F) :=
  broadcastInDim S850000x1 ![0] bcast_S850000_S850000x1_0
    (mulf (Host.gather gather_S50000_S850000x1_S850000_n_0_n_n_0_1_1 g (wrapCol s))
      (Host.gather gather_S50000_S850000x1_S850000_n_0_n_n_0_1_1 g (wrapCol d)))

/-- Every edge's normalisation, as a column: the product of its endpoints' inverse square root degrees. -/
def normCol (s d : (⟨S850000, .i32⟩ : BufTy).Contents (Elt F)) : (⟨S850000x1, .f32⟩ : BufTy).Contents (Elt F) :=
  edgeProductCol (invSqrtDegree d) s d

/-- One round of message passing over node rows kept in the narrow float format: gather the source rows, widen, scale by the
    edge normalisation, add into the target rows from zero. -/
def spreadNarrow (h : (⟨S50000x128, .bf16⟩ : BufTy).Contents (Elt F)) (s d : (⟨S850000, .i32⟩ : BufTy).Contents (Elt F))
    (n : (⟨S850000x1, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (extf .f32 (Host.gather gather_S50000x128_S850000x1_S850000x128_1_0_n_n_0_1_1128 h (wrapCol s)) bitsLt_bf16_f32)
      (broadcastInDim S850000x128 ![0, 1] bcast_S850000x1_S850000x128_0_1 n))

/-- The same round over node rows in the wide format (no widening step). -/
def spreadWide (h : (⟨S50000x128, .f32⟩ : BufTy).Contents (Elt F)) (s d : (⟨S850000, .i32⟩ : BufTy).Contents (Elt F))
    (n : (⟨S850000x1, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (wrapCol s))
      (broadcastInDim S850000x128 ![0, 1] bcast_S850000x1_S850000x128_0_1 n))

/-- On the extended reals the widening is the identity: the two rounds are one function of the rows. -/
theorem spreadNarrow_eq_wide (h : S50000x128.Idx → EReal) (s d : (⟨S850000, .i32⟩ : BufTy).Contents (Elt Ideal))
    (n : (⟨S850000x1, .f32⟩ : BufTy).Contents (Elt Ideal)) :
    spreadNarrow (F := Ideal) h s d n = spreadWide (F := Ideal) h s d n := rfl

/-- A bias vector as a one-row array. -/
def biasRow (b : (⟨S128, .f32⟩ : BufTy).Contents (Elt F)) : (⟨S1x128, .f32⟩ : BufTy).Contents (Elt F) :=
  shapeCast S1x128 b shapeCasts_S128_S1x128

end Cert.KernelIdeal.Chain

end
-- ==== Proof.KernelHost.lean ====
/-
  The kernel program's host stretches, each read as a function of the buffer contents it starts from: what the stretch leaves
  in each buffer a later launch or stretch reads is the shared host computation (the edge lists, the degree mask and inverse
  square root, the edge normalisation, one round of message passing, the bias row) of the buffers the stretch reads; a buffer
  no operation of the stretch writes keeps its contents.
-/
import proofs.«129577_j75866302317043_2_alg».proof.Proof.Gen.KernelIdeal.Launch
import proofs.«129577_j75866302317043_2_alg».proof.Proof.HostChain
import Idealize.ShloMosaic.Lib.StableHlo.Run

set_option maxRecDepth 16384

noncomputable section

namespace Cert.KernelIdeal.Host

open Idealize.ShloMosaic Idealize.ShloMosaic.TcCoe Idealize.ShloMosaic.StableHlo Idealize.SL.Sem
open Cert.KernelIdeal Cert.KernelIdeal.Gen Cert.KernelIdeal.Chain

variable {F : FTy → Type} [FloatOps F] (Vp : Valuation τ sig (Elt F))

/-! ## The first stretch: edge lists, degree mask and inverse square root -/

theorem first_sources : after hostOps0 Vp (Proc.devRef .tc main_v3) = sources (Vp (Proc.devRef .tc main_arg1)) := by
  unfold hostOps0; after_results <;> rfl
theorem first_targets : after hostOps0 Vp (Proc.devRef .tc main_v6) = targets (Vp (Proc.devRef .tc main_arg1)) := by
  unfold hostOps0; after_results <;> rfl
theorem first_positive : after hostOps0 Vp (Proc.devRef .tc main_v12) = degreePositive (targets (Vp (Proc.devRef .tc main_arg1))) := by
  unfold hostOps0; after_results <;> rfl
theorem first_rsqrt : after hostOps0 Vp (Proc.devRef .tc main_v13) = Host.rsqrt (degree (targets (Vp (Proc.devRef .tc main_arg1)))) := by
  unfold hostOps0; after_results <;> rfl
theorem first_zero : after hostOps0 Vp (Proc.devRef .tc main_cst_2) = constant S_ .f32 0x00000000#32 := by
  unfold hostOps0; after_results <;> rfl
theorem first_keeps : ∀ b ∈ ([main_arg0, main_arg2, main_arg3, main_arg4, main_arg5, main_arg6, main_arg7, main_arg8, main_arg9] : List (Ref sig .tc)),
    after hostOps0 Vp (Proc.devRef .tc b) = Vp (Proc.devRef .tc b) := by
  intro b hb
  simp only [List.mem_cons, List.mem_nil_iff, or_false] at hb
  rcases hb with rfl | rfl | rfl | rfl | rfl | rfl | rfl | rfl | rfl <;> (unfold hostOps0; after_results)

/-! ## The masked select -/

theorem second_masked : after hostOps0_1 Vp (Proc.devRef .tc main_v14)
    = maskedOr (Vp (Proc.devRef .tc main_v12)) (Vp (Proc.devRef .tc main_v13)) (Vp (Proc.devRef .tc main_cst_2)) := by
  unfold hostOps0_1; after_results <;> rfl
theorem second_keeps : ∀ b ∈ ([main_v3, main_v6, main_arg0, main_arg2, main_arg3, main_arg4, main_arg5, main_arg6, main_arg7, main_arg8, main_arg9] : List (Ref sig .tc)),
    after hostOps0_1 Vp (Proc.devRef .tc b) = Vp (Proc.devRef .tc b) := by
  intro b hb
  simp only [List.mem_cons, List.mem_nil_iff, or_false] at hb
  rcases hb with rfl | rfl | rfl | rfl | rfl | rfl | rfl | rfl | rfl | rfl | rfl <;> (unfold hostOps0_1; after_results)

/-! ## The edge normalisation -/

set_option maxHeartbeats 1600000 in
theorem third_norm : after hostOps0_2 Vp (Proc.devRef .tc main_v30)
    = edgeProductCol (Vp (Proc.devRef .tc main_v14)) (Vp (Proc.devRef .tc main_v3)) (Vp (Proc.devRef .tc main_v6)) := by
  unfold hostOps0_2; after_results_simp <;> rfl
set_option maxHeartbeats 3200000 in
theorem third_keeps : ∀ b ∈ ([main_v3, main_v6, main_arg0, main_arg2, main_arg3, main_arg4, main_arg5, main_arg6, main_arg7, main_arg8, main_arg9] : List (Ref sig .tc)),
    after hostOps0_2 Vp (Proc.devRef .tc b) = Vp (Proc.devRef .tc b) := by
  intro b hb
  simp only [List.mem_cons, List.mem_nil_iff, or_false] at hb
  rcases hb with rfl | rfl | rfl | rfl | rfl | rfl | rfl | rfl | rfl | rfl | rfl <;> (unfold hostOps0_2; after_results)

/-! ## The four message-passing stretches -/

set_option maxHeartbeats 1600000 in
theorem pass1 : after hostOps1 Vp (Proc.devRef .tc main_v44)
    = spreadNarrow (Vp (Proc.devRef .tc main_v31)) (Vp (Proc.devRef .tc main_v3)) (Vp (Proc.devRef .tc main_v6)) (Vp (Proc.devRef .tc main_v30)) := by
  unfold hostOps1; after_results_simp <;> rfl
theorem bias1 : after hostOps1 Vp (Proc.devRef .tc main_v45) = biasRow (Vp (Proc.devRef .tc main_arg3)) := by
  unfold hostOps1; after_results <;> rfl
theorem keeps1 : ∀ b ∈ ([main_v3, main_v6, main_v30, main_arg4, main_arg5, main_arg6, main_arg7, main_arg8, main_arg9] : List (Ref sig .tc)),
    after hostOps1 Vp (Proc.devRef .tc b) = Vp (Proc.devRef .tc b) := by
  intro b hb
  simp only [List.mem_cons, List.mem_nil_iff, or_false] at hb
  rcases hb with rfl | rfl | rfl | rfl | rfl | rfl | rfl | rfl | rfl <;> (unfold hostOps1; after_results)

set_option maxHeartbeats 1600000 in
theorem pass2 : after hostOps2 Vp (Proc.devRef .tc main_v59)
    = spreadNarrow (Vp (Proc.devRef .tc main_v46)) (Vp (Proc.devRef .tc main_v3)) (Vp (Proc.devRef .tc main_v6)) (Vp (Proc.devRef .tc main_v30)) := by
  unfold hostOps2; after_results_simp <;> rfl
theorem bias2 : after hostOps2 Vp (Proc.devRef .tc main_v60) = biasRow (Vp (Proc.devRef .tc main_arg5)) := by
  unfold hostOps2; after_results <;> rfl
theorem keeps2 : ∀ b ∈ ([main_v3, main_v6, main_v30, main_arg6, main_arg7, main_arg8, main_arg9] : List (Ref sig .tc)),
    after hostOps2 Vp (Proc.devRef .tc b) = Vp (Proc.devRef .tc b) := by
  intro b hb
  simp only [List.mem_cons, List.mem_nil_iff, or_false] at hb
  rcases hb with rfl | rfl | rfl | rfl | rfl | rfl | rfl <;> (unfold hostOps2; after_results)

set_option maxHeartbeats 1600000 in
theorem pass3 : after hostOps3 Vp (Proc.devRef .tc main_v74)
    = spreadNarrow (Vp (Proc.devRef .tc main_v61)) (Vp (Proc.devRef .tc main_v3)) (Vp (Proc.devRef .tc main_v6)) (Vp (Proc.devRef .tc main_v30)) := by
  unfold hostOps3; after_results_simp <;> rfl
theorem bias3 : after hostOps3 Vp (Proc.devRef .tc main_v75) = biasRow (Vp (Proc.devRef .tc main_arg7)) := by
  unfold hostOps3; after_results <;> rfl
theorem keeps3 : ∀ b ∈ ([main_v3, main_v6, main_v30, main_arg8, main_arg9] : List (Ref sig .tc)),
    after hostOps3 Vp (Proc.devRef .tc b) = Vp (Proc.devRef .tc b) := by
  intro b hb
  simp only [List.mem_cons, List.mem_nil_iff, or_false] at hb
  rcases hb with rfl | rfl | rfl | rfl | rfl <;> (unfold hostOps3; after_results)

set_option maxHeartbeats 1600000 in
theorem pass4 : after hostOps4 Vp (Proc.devRef .tc main_v89)
    = spreadNarrow (Vp (Proc.devRef .tc main_v76)) (Vp (Proc.devRef .tc main_v3)) (Vp (Proc.devRef .tc main_v6)) (Vp (Proc.devRef .tc main_v30)) := by
  unfold hostOps4; after_results_simp <;> rfl
theorem bias4 : after hostOps4 Vp (Proc.devRef .tc main_v90) = biasRow (Vp (Proc.devRef .tc main_arg9)) := by
  unfold hostOps4; after_results <;> rfl

end Cert.KernelIdeal.Host

end
-- ==== Proof.Conv.lean ====
/-
  One graph-convolution layer on the extended reals, and four of them: node rows times the weight matrix, one round of
  message passing over the edges (self loops appended, each message scaled by the product of its endpoints' inverse square
  root degrees), the bias row added, every entry clamped below at zero. Both programs compute `network`.
-/
import proofs.«129577_j75866302317043_2_alg».proof.Proof.HostChain
import proofs.«129577_j75866302317043_2_alg».proof.Proof.Layer

noncomputable section

namespace Cert.Gcn

open Idealize.ShloMosaic Cert.KernelIdeal Cert.KernelIdeal.Chain

/-- One layer. -/
def conv (h : S50000x128.Idx → EReal) (w : S128x128.Idx → EReal) (b : (⟨S128, .f32⟩ : BufTy).Contents (Elt Ideal))
    (e : (⟨S2x800000, .i32⟩ : BufTy).Contents (Elt Ideal)) : S50000x128.Idx → EReal :=
  biasClamp (spreadNarrow (F := Ideal) (dense h w) (sources e) (targets e) (normCol (sources e) (targets e))) (biasRow (F := Ideal) b)

/-- The four layers. -/
def network (x : S50000x128.Idx → EReal) (e : (⟨S2x800000, .i32⟩ : BufTy).Contents (Elt Ideal))
    (w1 : S128x128.Idx → EReal) (b1 : (⟨S128, .f32⟩ : BufTy).Contents (Elt Ideal))
    (w2 : S128x128.Idx → EReal) (b2 : (⟨S128, .f32⟩ : BufTy).Contents (Elt Ideal))
    (w3 : S128x128.Idx → EReal) (b3 : (⟨S128, .f32⟩ : BufTy).Contents (Elt Ideal))
    (w4 : S128x128.Idx → EReal) (b4 : (⟨S128, .f32⟩ : BufTy).Contents (Elt Ideal)) : S50000x128.Idx → EReal :=
  conv (conv (conv (conv x w1 b1 e) w2 b2 e) w3 b3 e) w4 b4 e

end Cert.Gcn

end
-- ==== Proof.KernelValue.lean ====
/-
  The kernel program's result, walked back from the last launch to the argument arrays. At the boundary before the first
  launch every argument array is as launched and the host has left the edge lists (sources, targets) and the edge
  normalisation; none of these, and no weight or bias, is written again, so each later stretch and launch reads them as they
  were there. Then, alternately: a launch leaves the dense step of the clamped aggregate (the first launch: of the node
  features) in its output array, and a host stretch leaves one round of message passing of that array and the next bias row.
  The last launch leaves the clamped aggregate: four layers of the argument arrays.
-/
import proofs.«129577_j75866302317043_2_alg».proof.Proof.Gen.KernelIdeal.Frame
import proofs.«129577_j75866302317043_2_alg».proof.Proof.Region0
import proofs.«129577_j75866302317043_2_alg».proof.Proof.Region1
import proofs.«129577_j75866302317043_2_alg».proof.Proof.Region2
import proofs.«129577_j75866302317043_2_alg».proof.Proof.Region3
import proofs.«129577_j75866302317043_2_alg».proof.Proof.Region4
import proofs.«129577_j75866302317043_2_alg».proof.Proof.KernelHost
import proofs.«129577_j75866302317043_2_alg».proof.Proof.Conv

set_option maxRecDepth 16384

noncomputable section

namespace Cert.KernelIdeal.Result

open Idealize.ShloMosaic Idealize.ShloMosaic.TcCoe Idealize.SL.Sem
open Cert.KernelIdeal Cert.KernelIdeal.Gen Cert.KernelIdeal.Chain Cert.KernelIdeal.Host Cert.KernelIdeal.Regions Cert.Gcn

variable (m : (ℓ : Loc nD τ sig) → Buf (Elt Ideal) ℓ) (ρ : Dev nD → PrngReg) (c : Dev nD)

/-! ## Before the first launch -/

theorem start_arg0 : W3 m ρ c (Proc.devRef .tc main_arg0) = m ((c : Thread nD τ).loc main_arg0) :=
  (third_keeps (W2 m ρ c) main_arg0 (by decide)).trans ((second_keeps (W1 m ρ c) main_arg0 (by decide)).trans
    ((first_keeps (W0 m ρ c) main_arg0 (by decide)).trans rfl))
theorem start_arg2 : W3 m ρ c (Proc.devRef .tc main_arg2) = m ((c : Thread nD τ).loc main_arg2) :=
  (third_keeps (W2 m ρ c) main_arg2 (by decide)).trans ((second_keeps (W1 m ρ c) main_arg2 (by decide)).trans
    ((first_keeps (W0 m ρ c) main_arg2 (by decide)).trans rfl))
theorem start_arg3 : W3 m ρ c (Proc.devRef .tc main_arg3) = m ((c : Thread nD τ).loc main_arg3) :=
  (third_keeps (W2 m ρ c) main_arg3 (by decide)).trans ((second_keeps (W1 m ρ c) main_arg3 (by decide)).trans
    ((first_keeps (W0 m ρ c) main_arg3 (by decide)).trans rfl))
theorem start_arg4 : W3 m ρ c (Proc.devRef .tc main_arg4) = m ((c : Thread nD τ).loc main_arg4) :=
  (third_keeps (W2 m ρ c) main_arg4 (by decide)).trans ((second_keeps (W1 m ρ c) main_arg4 (by decide)).trans
    ((first_keeps (W0 m ρ c) main_arg4 (by decide)).trans rfl))
theorem start_arg5 : W3 m ρ c (Proc.devRef .tc main_arg5) = m ((c : Thread nD τ).loc main_arg5) :=
  (third_keeps (W2 m ρ c) main_arg5 (by decide)).trans ((second_keeps (W1 m ρ c) main_arg5 (by decide)).trans
    ((first_keeps (W0 m ρ c) main_arg5 (by decide)).trans rfl))
theorem start_arg6 : W3 m ρ c (Proc.devRef .tc main_arg6) = m ((c : Thread nD τ).loc main_arg6) :=
  (third_keeps (W2 m ρ c) main_arg6 (by decide)).trans ((second_keeps (W1 m ρ c) main_arg6 (by decide)).trans
    ((first_keeps (W0 m ρ c) main_arg6 (by decide)).trans rfl))
theorem start_arg7 : W3 m ρ c (Proc.devRef .tc main_arg7) = m ((c : Thread nD τ).loc main_arg7) :=
  (third_keeps (W2 m ρ c) main_arg7 (by decide)).trans ((second_keeps (W1 m ρ c) main_arg7 (by decide)).trans
    ((first_keeps (W0 m ρ c) main_arg7 (by decide)).trans rfl))
theorem start_arg8 : W3 m ρ c (Proc.devRef .tc main_arg8) = m ((c : Thread nD τ).loc main_arg8) :=
  (third_keeps (W2 m ρ c) main_arg8 (by decide)).trans ((second_keeps (W1 m ρ c) main_arg8 (by decide)).trans
    ((first_keeps (W0 m ρ c) main_arg8 (by decide)).trans rfl))
theorem start_arg9 : W3 m ρ c (Proc.devRef .tc main_arg9) = m ((c : Thread nD τ).loc main_arg9) :=
  (third_keeps (W2 m ρ c) main_arg9 (by decide)).trans ((second_keeps (W1 m ρ c) main_arg9 (by decide)).trans
    ((first_keeps (W0 m ρ c) main_arg9 (by decide)).trans rfl))

theorem start_sources : W3 m ρ c (Proc.devRef .tc main_v3) = sources (m ((c : Thread nD τ).loc main_arg1)) :=
  (third_keeps (W2 m ρ c) main_v3 (by decide)).trans ((second_keeps (W1 m ρ c) main_v3 (by decide)).trans (first_sources (W0 m ρ c)))
theorem start_targets : W3 m ρ c (Proc.devRef .tc main_v6) = targets (m ((c : Thread nD τ).loc main_arg1)) :=
  (third_keeps (W2 m ρ c) main_v6 (by decide)).trans ((second_keeps (W1 m ρ c) main_v6 (by decide)).trans (first_targets (W0 m ρ c)))

theorem start_invSqrt : W2 m ρ c (Proc.devRef .tc main_v14) = invSqrtDegree (targets (m ((c : Thread nD τ).loc main_arg1))) := by
  show StableHlo.after hostOps0_1 (W1 m ρ c) (Proc.devRef .tc main_v14) = _
  rw [second_masked]
  show maskedOr (StableHlo.after hostOps0 (W0 m ρ c) (Proc.devRef .tc main_v12)) (StableHlo.after hostOps0 (W0 m ρ c) (Proc.devRef .tc main_v13))
    (StableHlo.after hostOps0 (W0 m ρ c) (Proc.devRef .tc main_cst_2)) = _
  rw [first_positive, first_rsqrt, first_zero]
  rfl

theorem start_norm : W3 m ρ c (Proc.devRef .tc main_v30) = normCol (sources (m ((c : Thread nD τ).loc main_arg1))) (targets (m ((c : Thread nD τ).loc main_arg1))) := by
  show StableHlo.after hostOps0_2 (W2 m ρ c) (Proc.devRef .tc main_v30) = _
  rw [third_norm, start_invSqrt]
  show edgeProductCol _ (StableHlo.after hostOps0_1 (W1 m ρ c) (Proc.devRef .tc main_v3)) (StableHlo.after hostOps0_1 (W1 m ρ c) (Proc.devRef .tc main_v6)) = _
  rw [second_keeps (W1 m ρ c) main_v3 (by decide), second_keeps (W1 m ρ c) main_v6 (by decide)]
  show edgeProductCol _ (StableHlo.after hostOps0 (W0 m ρ c) (Proc.devRef .tc main_v3)) (StableHlo.after hostOps0 (W0 m ρ c) (Proc.devRef .tc main_v6)) = _
  rw [first_sources, first_targets]
  rfl

/-! ## A buffer nothing writes any more is, at every later boundary, what it was before the first launch -/

theorem at4 (b : Ref sig .tc) (h0 : ∀ w, Pipeline.arrRef spec0 w ≠ b) :
    W4 m ρ c (Proc.devRef .tc b) = W3 m ρ c (Proc.devRef .tc b) := W4_of_ne m ρ c b h0
theorem at5 (b : Ref sig .tc) (k1 : b ∈ ([main_v3, main_v6, main_v30, main_arg4, main_arg5, main_arg6, main_arg7, main_arg8, main_arg9] : List (Ref sig .tc)))
    (h0 : ∀ w, Pipeline.arrRef spec0 w ≠ b) : W5 m ρ c (Proc.devRef .tc b) = W3 m ρ c (Proc.devRef .tc b) :=
  (keeps1 (W4 m ρ c) b k1).trans (at4 m ρ c b h0)
theorem at6 (b : Ref sig .tc) (k1 : b ∈ ([main_v3, main_v6, main_v30, main_arg4, main_arg5, main_arg6, main_arg7, main_arg8, main_arg9] : List (Ref sig .tc)))
    (h0 : ∀ w, Pipeline.arrRef spec0 w ≠ b) (h1 : ∀ w, Pipeline.arrRef spec1 w ≠ b) : W6 m ρ c (Proc.devRef .tc b) = W3 m ρ c (Proc.devRef .tc b) :=
  (W6_of_ne m ρ c b h1).trans (at5 m ρ c b k1 h0)
theorem at7 (b : Ref sig .tc) (k2 : b ∈ ([main_v3, main_v6, main_v30, main_arg6, main_arg7, main_arg8, main_arg9] : List (Ref sig .tc)))
    (k1 : b ∈ ([main_v3, main_v6, main_v30, main_arg4, main_arg5, main_arg6, main_arg7, main_arg8, main_arg9] : List (Ref sig .tc)))
    (h0 : ∀ w, Pipeline.arrRef spec0 w ≠ b) (h1 : ∀ w, Pipeline.arrRef spec1 w ≠ b) : W7 m ρ c (Proc.devRef .tc b) = W3 m ρ c (Proc.devRef .tc b) :=
  (keeps2 (W6 m ρ c) b k2).trans (at6 m ρ c b k1 h0 h1)
theorem at8 (b : Ref sig .tc) (k2 : b ∈ ([main_v3, main_v6, main_v30, main_arg6, main_arg7, main_arg8, main_arg9] : List (Ref sig .tc)))
    (k1 : b ∈ ([main_v3, main_v6, main_v30, main_arg4, main_arg5, main_arg6, main_arg7, main_arg8, main_arg9] : List (Ref sig .tc)))
    (h0 : ∀ w, Pipeline.arrRef spec0 w ≠ b) (h1 : ∀ w, Pipeline.arrRef spec1 w ≠ b) (h2 : ∀ w, Pipeline.arrRef spec2 w ≠ b) :
    W8 m ρ c (Proc.devRef .tc b) = W3 m ρ c (Proc.devRef .tc b) :=
  (W8_of_ne m ρ c b h2).trans (at7 m ρ c b k2 k1 h0 h1)
theorem at9 (b : Ref sig .tc) (k3 : b ∈ ([main_v3, main_v6, main_v30, main_arg8, main_arg9] : List (Ref sig .tc)))
    (k2 : b ∈ ([main_v3, main_v6, main_v30, main_arg6, main_arg7, main_arg8, main_arg9] : List (Ref sig .tc)))
    (k1 : b ∈ ([main_v3, main_v6, main_v30, main_arg4, main_arg5, main_arg6, main_arg7, main_arg8, main_arg9] : List (Ref sig .tc)))
    (h0 : ∀ w, Pipeline.arrRef spec0 w ≠ b) (h1 : ∀ w, Pipeline.arrRef spec1 w ≠ b) (h2 : ∀ w, Pipeline.arrRef spec2 w ≠ b) :
    W9 m ρ c (Proc.devRef .tc b) = W3 m ρ c (Proc.devRef .tc b) :=
  (keeps3 (W8 m ρ c) b k3).trans (at8 m ρ c b k2 k1 h0 h1 h2)
theorem at10 (b : Ref sig .tc) (k3 : b ∈ ([main_v3, main_v6, main_v30, main_arg8, main_arg9] : List (Ref sig .tc)))
    (k2 : b ∈ ([main_v3, main_v6, main_v30, main_arg6, main_arg7, main_arg8, main_arg9] : List (Ref sig .tc)))
    (k1 : b ∈ ([main_v3, main_v6, main_v30, main_arg4, main_arg5, main_arg6, main_arg7, main_arg8, main_arg9] : List (Ref sig .tc)))
    (h0 : ∀ w, Pipeline.arrRef spec0 w ≠ b) (h1 : ∀ w, Pipeline.arrRef spec1 w ≠ b) (h2 : ∀ w, Pipeline.arrRef spec2 w ≠ b)
    (h3 : ∀ w, Pipeline.arrRef spec3 w ≠ b) : W10 m ρ c (Proc.devRef .tc b) = W3 m ρ c (Proc.devRef .tc b) :=
  (W10_of_ne m ρ c b h3).trans (at9 m ρ c b k3 k2 k1 h0 h1 h2)

/-! ## The launches and the stretches between them -/

/-- After the first launch: the node features times the first weight matrix. -/
theorem after_launch0 : W4 m ρ c (Proc.devRef .tc main_v31) = dense (m ((c : Thread nD τ).loc main_arg0)) (m ((c : Thread nD τ).loc main_arg2)) := by
  refine (W4_arr m ρ c 2).trans ((final0 (V3 m ρ) c).trans ?_)
  show dense (W3 m ρ c (Proc.devRef .tc main_arg0)) (W3 m ρ c (Proc.devRef .tc main_arg2)) = _
  rw [start_arg0, start_arg2]

/-- The first round of message passing. -/
theorem after_pass1 : W5 m ρ c (Proc.devRef .tc main_v44)
    = spreadNarrow (F := Ideal) (dense (m ((c : Thread nD τ).loc main_arg0)) (m ((c : Thread nD τ).loc main_arg2))) (sources (m ((c : Thread nD τ).loc main_arg1))) (targets (m ((c : Thread nD τ).loc main_arg1))) (normCol (sources (m ((c : Thread nD τ).loc main_arg1))) (targets (m ((c : Thread nD τ).loc main_arg1)))) := by
  show StableHlo.after hostOps1 (W4 m ρ c) (Proc.devRef .tc main_v44) = _
  rw [pass1, after_launch0, at4 m ρ c main_v3 (by decide), at4 m ρ c main_v6 (by decide), at4 m ρ c main_v30 (by decide),
    start_sources, start_targets, start_norm]
theorem after_bias1 : W5 m ρ c (Proc.devRef .tc main_v45) = biasRow (F := Ideal) (m ((c : Thread nD τ).loc main_arg3)) := by
  show StableHlo.after hostOps1 (W4 m ρ c) (Proc.devRef .tc main_v45) = _
  rw [bias1, at4 m ρ c main_arg3 (by decide), start_arg3]

/-- After the second launch: the first layer times the second weight matrix. -/
theorem after_launch1 : W6 m ρ c (Proc.devRef .tc main_v46) = dense (conv (m ((c : Thread nD τ).loc main_arg0)) (m ((c : Thread nD τ).loc main_arg2)) (m ((c : Thread nD τ).loc main_arg3)) (m ((c : Thread nD τ).loc main_arg1))) (m ((c : Thread nD τ).loc main_arg4)) := by
  refine (W6_arr m ρ c 3).trans ((final1 (V5 m ρ) c).trans ?_)
  show dense (biasClamp (W5 m ρ c (Proc.devRef .tc main_v44)) (W5 m ρ c (Proc.devRef .tc main_v45))) (W5 m ρ c (Proc.devRef .tc main_arg4)) = _
  rw [after_pass1, after_bias1, at5 m ρ c main_arg4 (by decide) (by decide), start_arg4]
  rfl

theorem after_pass2 : W7 m ρ c (Proc.devRef .tc main_v59)
    = spreadNarrow (F := Ideal) (dense (conv (m ((c : Thread nD τ).loc main_arg0)) (m ((c : Thread nD τ).loc main_arg2)) (m ((c : Thread nD τ).loc main_arg3)) (m ((c : Thread nD τ).loc main_arg1))) (m ((c : Thread nD τ).loc main_arg4))) (sources (m ((c : Thread nD τ).loc main_arg1))) (targets (m ((c : Thread nD τ).loc main_arg1))) (normCol (sources (m ((c : Thread nD τ).loc main_arg1))) (targets (m ((c : Thread nD τ).loc main_arg1)))) := by
  show StableHlo.after hostOps2 (W6 m ρ c) (Proc.devRef .tc main_v59) = _
  rw [pass2, after_launch1, at6 m ρ c main_v3 (by decide) (by decide) (by decide), at6 m ρ c main_v6 (by decide) (by decide) (by decide),
    at6 m ρ c main_v30 (by decide) (by decide) (by decide), start_sources, start_targets, start_norm]
theorem after_bias2 : W7 m ρ c (Proc.devRef .tc main_v60) = biasRow (F := Ideal) (m ((c : Thread nD τ).loc main_arg5)) := by
  show StableHlo.after hostOps2 (W6 m ρ c) (Proc.devRef .tc main_v60) = _
  rw [bias2, at6 m ρ c main_arg5 (by decide) (by decide) (by decide), start_arg5]

/-- After the third launch: two layers times the third weight matrix. -/
theorem after_launch2 : W8 m ρ c (Proc.devRef .tc main_v61)
    = dense (conv (conv (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) := by
  refine (W8_arr m ρ c 3).trans ((final2 (V7 m ρ) c).trans ?_)
  show dense (biasClamp (W7 m ρ c (Proc.devRef .tc main_v59)) (W7 m ρ c (Proc.devRef .tc main_v60))) (W7 m ρ c (Proc.devRef .tc main_arg6)) = _
  rw [after_pass2, after_bias2, at7 m ρ c main_arg6 (by decide) (by decide) (by decide) (by decide), start_arg6]
  rfl

theorem after_pass3 : W9 m ρ c (Proc.devRef .tc main_v74)
    = spreadNarrow (F := Ideal) (dense (conv (conv (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6))) (sources (m ((c : Thread nD τ).loc main_arg1))) (targets (m ((c : Thread nD τ).loc main_arg1))) (normCol (sources (m ((c : Thread nD τ).loc main_arg1))) (targets (m ((c : Thread nD τ).loc main_arg1)))) := by
  show StableHlo.after hostOps3 (W8 m ρ c) (Proc.devRef .tc main_v74) = _
  rw [pass3, after_launch2, at8 m ρ c main_v3 (by decide) (by decide) (by decide) (by decide) (by decide),
    at8 m ρ c main_v6 (by decide) (by decide) (by decide) (by decide) (by decide),
    at8 m ρ c main_v30 (by decide) (by decide) (by decide) (by decide) (by decide), start_sources, start_targets, start_norm]
theorem after_bias3 : W9 m ρ c (Proc.devRef .tc main_v75) = biasRow (F := Ideal) (m ((c : Thread nD τ).loc main_arg7)) := by
  show StableHlo.after hostOps3 (W8 m ρ c) (Proc.devRef .tc main_v75) = _
  rw [bias3, at8 m ρ c main_arg7 (by decide) (by decide) (by decide) (by decide) (by decide), start_arg7]

/-- After the fourth launch: three layers times the fourth weight matrix. -/
theorem after_launch3 : W10 m ρ c (Proc.devRef .tc main_v76)
    = dense (conv (conv (conv (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (m ((c : Thread nD τ).loc main_arg8)) := by
  refine (W10_arr m ρ c 3).trans ((final3 (V9 m ρ) c).trans ?_)
  show dense (biasClamp (W9 m ρ c (Proc.devRef .tc main_v74)) (W9 m ρ c (Proc.devRef .tc main_v75))) (W9 m ρ c (Proc.devRef .tc main_arg8)) = _
  rw [after_pass3, after_bias3, at9 m ρ c main_arg8 (by decide) (by decide) (by decide) (by decide) (by decide) (by decide), start_arg8]
  rfl

theorem after_pass4 : W11 m ρ c (Proc.devRef .tc main_v89)
    = spreadNarrow (F := Ideal) (dense (conv (conv (conv (m ((c : Thread nD τ).loc main_arg0)) (m ((c : Thread nD τ).loc main_arg2)) (m ((c : Thread nD τ).loc main_arg3)) (m ((c : Thread nD τ).loc main_arg1))) (m ((c : Thread nD τ).loc main_arg4)) (m ((c : Thread nD τ).loc main_arg5)) (m ((c : Thread nD τ).loc main_arg1))) (m ((c : Thread nD τ).loc main_arg6)) (m ((c : Thread nD τ).loc main_arg7)) (m ((c : Thread nD τ).loc main_arg1))) (m ((c : Thread nD τ).loc main_arg8))) (sources (m ((c : Thread nD τ).loc main_arg1))) (targets (m ((c : Thread nD τ).loc main_arg1))) (normCol (sources (m ((c : Thread nD τ).loc main_arg1))) (targets (m ((c : Thread nD τ).loc main_arg1)))) := by
  show StableHlo.after hostOps4 (W10 m ρ c) (Proc.devRef .tc main_v89) = _
  rw [pass4, after_launch3, at10 m ρ c main_v3 (by decide) (by decide) (by decide) (by decide) (by decide) (by decide) (by decide),
    at10 m ρ c main_v6 (by decide) (by decide) (by decide) (by decide) (by decide) (by decide) (by decide),
    at10 m ρ c main_v30 (by decide) (by decide) (by decide) (by decide) (by decide) (by decide) (by decide), start_sources, start_targets, start_norm]
theorem after_bias4 : W11 m ρ c (Proc.devRef .tc main_v90) = biasRow (F := Ideal) (m ((c : Thread nD τ).loc main_arg9)) := by
  show StableHlo.after hostOps4 (W10 m ρ c) (Proc.devRef .tc main_v90) = _
  rw [bias4, at10 m ρ c main_arg9 (by decide) (by decide) (by decide) (by decide) (by decide) (by decide) (by decide), start_arg9]

/-- After the last launch the result array holds the four-layer network of the argument arrays. -/
theorem result : W12 m ρ c (Proc.devRef .tc main_v91)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((final4 (V11 m ρ) c).trans ?_)
  show biasClamp (W11 m ρ c (Proc.devRef .tc main_v89)) (W11 m ρ c (Proc.devRef .tc main_v90)) = _
  rw [after_pass4, after_bias4]
  rfl

end Cert.KernelIdeal.Result

end
-- ==== Proof.RefValue.lean ====
/-
  The reference program's result, layer by layer. Its run ends with the result buffer at one long term of the argument arrays;
  that term is four nested layers, each: node rows times a weight matrix (the host's `dot_general`), one round of message
  passing over the shared edge lists and edge normalisation, the bias vector broadcast over the nodes and added, and the
  `maximum` with the zero array. On the extended reals a layer is `biasClamp (spread (dense h w)) (bias row)`:
  the `dot_general` is the plain sum of products, and the broadcast bias add followed by `maximum` with the zero splat is
  `biasClamp` entry by entry.
-/
import proofs.«129577_j75866302317043_2_alg».proof.Proof.RefRun
import proofs.«129577_j75866302317043_2_alg».proof.Proof.HostChain
import proofs.«129577_j75866302317043_2_alg».proof.Proof.Conv
import proofs.«129577_j75866302317043_2_alg».proof.Proof.Layer
import proofs.«129577_j75866302317043_2_alg».proof.Proof.LibPlainDot
import Idealize.ShloMosaic.Lib.Pipeline.Value
import Idealize.ShloMosaic.Lib.ValueLayout

set_option maxRecDepth 16384

noncomputable section

open scoped BigOperators

namespace Cert.ReferenceIdeal.Layers

open Idealize.ShloMosaic Idealize.ShloMosaic.TcCoe Idealize.ShloMosaic.ValueIdx Idealize.SL.Sem
open Cert.ReferenceIdeal Cert.ReferenceIdeal.Facts₀ Cert.Gcn
open Cert.KernelIdeal.Chain (sources targets normCol spreadWide spreadNarrow biasRow)

variable {F : FTy → Type} [FloatOps F]

/-- One layer as the reference program writes it. -/
def layer (h : (⟨S50000x128, .f32⟩ : BufTy).Contents (Elt F)) (w : (⟨S128x128, .f32⟩ : BufTy).Contents (Elt F))
    (b : (⟨S128, .f32⟩ : BufTy).Contents (Elt F)) (e : (⟨S2x800000, .i32⟩ : BufTy).Contents (Elt F)) :
    (⟨S50000x128, .f32⟩ : BufTy).Contents (Elt F) :=
  maximumf
    (addf (spreadWide (Host.dotGeneral dot_S50000x128_S128x128_S50000x128_1_0_0_1_n_n none h w)
        (sources e) (targets e) (normCol (sources e) (targets e)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

set_option maxHeartbeats 4000000 in
/-- The term the reference's run ends at is four layers, innermost first. -/
theorem result_layers (m : (ℓ : Loc nD τ sig) → Buf (Elt F) ℓ) (c : Dev nD) :
    Cert.ReferenceIdeal.ValueP.res_main_v101 m c
      = layer (layer (layer (layer (m ((c.tc : Thread nD τ).loc main_arg0)) (m ((c.tc : Thread nD τ).loc main_arg2))
            (m ((c.tc : Thread nD τ).loc main_arg3)) (m ((c.tc : Thread nD τ).loc main_arg1)))
          (m ((c.tc : Thread nD τ).loc main_arg4)) (m ((c.tc : Thread nD τ).loc main_arg5)) (m ((c.tc : Thread nD τ).loc main_arg1)))
          (m ((c.tc : Thread nD τ).loc main_arg6)) (m ((c.tc : Thread nD τ).loc main_arg7)) (m ((c.tc : Thread nD τ).loc main_arg1)))
          (m ((c.tc : Thread nD τ).loc main_arg8)) (m ((c.tc : Thread nD τ).loc main_arg9)) (m ((c.tc : Thread nD τ).loc main_arg1)) := by
  unfold Cert.ReferenceIdeal.ValueP.res_main_v101
  rfl

/-- The host's `dot_general` of node rows and a weight matrix is `dense`. -/
theorem dotGeneral_eq_dense (h : FVec Ideal S50000x128 .f32) (w : FVec Ideal S128x128 .f32) :
    Host.dotGeneral dot_S50000x128_S128x128_S50000x128_1_0_0_1_n_n none h w = dense h w := by
  funext i
  obtain ⟨r, q, rfl⟩ : ∃ (r : Fin 50000) (q : Fin 128), i = ix2 r q := ⟨i 0, i 1, eq_ix2 i⟩
  simp only [Host.dotGeneral]
  exact PlainDot.dotGeneral_apply (M := 50000) (K := 128) (N := 128) none _ h w r q

/-- The bias vector broadcast over the nodes and added, then the `maximum` with the zero array, is `biasClamp` with the bias row. -/
theorem bias_max_eq (a : FVec Ideal S50000x128 .f32) (b : FVec Ideal S128 .f32) :
    maximumf (addf a (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = biasClamp a (biasRow (F := Ideal) b) := by
  funext i
  obtain ⟨r, q, rfl⟩ : ∃ (r : Fin 50000) (q : Fin 128), i = ix2 r q := ⟨i 0, i 1, eq_ix2 i⟩
  unfold biasClamp biasRow
  rw [maximumf_apply, addf_apply,
    broadcastInDim_apply ![0, 1] bcast_S1x128_S50000x128_0_1 _ (ix2 r q) (ix2 (0 : Fin 1) q) (fun a => by
      match a with
      | ⟨0, _⟩ => rfl
      | ⟨1, _⟩ => show q.val = if (128 : Nat) = 1 then 0 else q.val; rw [if_neg (by decide)]),
    broadcastInDim_apply ![1] bcast_S128_S1x128_1 b (ix2 (0 : Fin 1) q) (ix1 q) (fun a => by
      match a with
      | ⟨0, _⟩ => show q.val = if (128 : Nat) = 1 then 0 else q.val; rw [if_neg (by decide)]),
    broadcastInDim_apply ![] bcast_S_S50000x128 _ (ix2 r q) ix0 (fun a => a.elim0),
    shapeCast_a_1a_apply b _ (0 : Fin 1) q]
  rfl

/-- A reference layer on the extended reals: the dense step, one round of message passing, the bias and the clamp. -/
theorem layer_eq (h : FVec Ideal S50000x128 .f32) (w : FVec Ideal S128x128 .f32) (b : FVec Ideal S128 .f32)
    (e : (⟨S2x800000, .i32⟩ : BufTy).Contents (Elt Ideal)) :
    layer (F := Ideal) h w b e = conv h w b e := by
  unfold layer conv
  rw [bias_max_eq, dotGeneral_eq_dense]
  rfl

/-- The reference's result is the four-layer network of its argument arrays. -/
theorem result_network (m : (ℓ : Loc nD τ sig) → Buf (Elt Ideal) ℓ) (c : Dev nD) :
    Cert.ReferenceIdeal.ValueP.res_main_v101 m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [result_layers, layer_eq, layer_eq, layer_eq, layer_eq]
  rfl

end Cert.ReferenceIdeal.Layers

end
-- ==== Proof.lean ====
/- The kernel computes a four-layer graph convolution network over 50000 nodes of 128 features and 800000 edges: each layer
   multiplies the node features by a 128 × 128 weight matrix, passes messages along the edges (one self loop per node appended;
   each message scaled by the product of its endpoints' inverse square root in-degrees) by a gather and a scatter-add on the host,
   adds a bias row and clamps below at zero. The kernel does the matrix products, and from the second layer on the previous
   layer's bias and clamp, in five launches over tiles of 5000 nodes, keeping the products in a narrower float format between a
   launch and the following gather; the reference does everything on the host in one format. On the extended reals a change of
   float format is the identity, a product into the zero accumulator and the host's `dot_general` are the same sum over the 128
   contracted features, and the ten tiles of a launch cover the node array, so both programs end at the same function `network`
   of the ten argument arrays: the two sides apply the same operations in the same order, no distributivity or cancellation is
   used, and the finiteness of the inputs is never needed. The idealization rewrote nothing, so `preserves` is trivial; the three
   frames are the kernel programs' launch theorem and the reference's run with the result forgotten. -/
import proofs.«129577_j75866302317043_2_alg».proof.Defs
import proofs.«129577_j75866302317043_2_alg».proof.Proof.Gen.Kernel
import proofs.«129577_j75866302317043_2_alg».proof.Proof.Gen.Kernel.Frame
import proofs.«129577_j75866302317043_2_alg».proof.Proof.Gen.KernelIdeal
import proofs.«129577_j75866302317043_2_alg».proof.Proof.Gen.KernelIdeal.Frame
import proofs.«129577_j75866302317043_2_alg».proof.Proof.Gen.ReferenceIdeal
import proofs.«129577_j75866302317043_2_alg».proof.Proof.Gen.Pre_finite_inputs
import proofs.«129577_j75866302317043_2_alg».proof.Proof.KernelRun
import proofs.«129577_j75866302317043_2_alg».proof.Proof.KernelValue
import proofs.«129577_j75866302317043_2_alg».proof.Proof.RefRun
import proofs.«129577_j75866302317043_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel program ends with its result array at the four-layer network of its argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v91)
          = network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
              (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono
    (fun _ h c => ⟨(h c).1.trans (Cert.KernelIdeal.Result.result m ρ c), (h c).2⟩)
    (Cert.KernelIdeal.Named.run_named (F := Ideal) m ρ)

/-- Both idealized programs end at the network of the arguments, which they agree on. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.Layers.result_network, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
